-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x256 : Shape := ⟨3, ![64, 2048, 256]⟩
abbrev S32x256 : Shape := ⟨2, ![32, 256]⟩
abbrev S_ : Shape := ⟨0, ![]⟩

class Facts : Prop where
  bcast_S_S64x2048x256 : S_.BroadcastsInDim S64x2048x256 (![] : Fin 0 → Fin S64x2048x256.rank)
  reducesTo_S64x2048x256_S_d0_1_2 : S64x2048x256.ReducesTo [0, 1, 2] S_
  h_S_ : 0 < S_.numel
  bcast_S_S32x256 : S_.BroadcastsInDim S32x256 (![] : Fin 0 → Fin S32x256.rank)
  reducesTo_S32x256_S_d0_1 : S32x256.ReducesTo [0, 1] S_

variable [Facts]

def fn {F : FTy → Type} [FloatOps F] (main_arg0 : FVec F S64x2048x256 .f32) (main_arg1 : FVec F S32x256 .f32) : IVec S_ 1 :=
  let main_v0 : FVec F S64x2048x256 .f32 := Host.absf main_arg0
  let main_cst : FVec F S_ .f32 := constant S_ .f32 0x7F800000#32
  let main_v1 : FVec F S64x2048x256 .f32 := broadcastInDim S64x2048x256 ![] bcast_S_S64x2048x256 main_cst
  let main_v2 : IVec S64x2048x256 1 := cmpf .olt main_v0 main_v1
  let main_c : IVec S_ 1 := constantI S_ 1 1#1
  let main_v3 : IVec S_ 1 := (fun x v => Host.reduce IntOp.andi x v reducesTo_S64x2048x256_S_d0_1_2 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  main_v8
-- ==== Kernel.lean ====
abbrev S64x2048x256 : Shape := ⟨3, ![64, 2048, 256]⟩
abbrev S32x256 : Shape := ⟨2, ![32, 256]⟩
abbrev S64x32x256 : Shape := ⟨3, ![64, 32, 256]⟩
abbrev S4x2048x256 : Shape := ⟨3, ![4, 2048, 256]⟩
abbrev S4x32x256 : Shape := ⟨3, ![4, 32, 256]⟩
abbrev S1x2048x256 : Shape := ⟨3, ![1, 2048, 256]⟩
abbrev S2048x256 : Shape := ⟨2, ![2048, 256]⟩
abbrev S32x2048 : Shape := ⟨2, ![32, 2048]⟩
abbrev S32 : Shape := ⟨1, ![32]⟩
abbrev S32x1 : Shape := ⟨2, ![32, 1]⟩
abbrev S1x32x256 : Shape := ⟨3, ![1, 32, 256]⟩

abbrev nBuf : Space → Nat
  | .hbm => 3
  | .vmem => 5
  | .smem => 0
  | _ => 0

abbrev bufTy : (tb : Table) → Fin (tcTables nBuf tb) → BufTy
  | .hbm, ⟨0, _⟩ => ⟨S64x2048x256, .f32⟩
  | .hbm, ⟨1, _⟩ => ⟨S32x256, .f32⟩
  | .hbm, ⟨2, _⟩ => ⟨S64x32x256, .f32⟩
  | .local _ .vmem, ⟨0, _⟩ => ⟨S32x256, .f32⟩
  | .local _ .vmem, ⟨1, _⟩ => ⟨S4x2048x256, .f32⟩
  | .local _ .vmem, ⟨2, _⟩ => ⟨S4x2048x256, .f32⟩
  | .local _ .vmem, ⟨3, _⟩ => ⟨S4x32x256, .f32⟩
  | .local _ .vmem, ⟨4, _⟩ => ⟨S4x32x256, .f32⟩
  | _, _ => ⟨S64x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_off1 (k0_t1 : Fin k0_t1_loop.trips) : Fin 3 → Nat :=
  let c0_i32 : BitVec 32 := 0#32
  let c1_i32 : BitVec 32 := 1#32
  let arg4 : BitVec 32 := Scf.iv c0_i32 c1_i32 k0_t1
  let v3 : Index := Scalar.indexCast arg4
  let c0_2 : Index := 0#32
  let c0_3 : Index := 0#32
  ![v3.toNat, 0, 0]
def k0_off2 (k0_t1 : Fin k0_t1_loop.trips) : Fin 3 → Nat :=
  let c0_i32 : BitVec 32 := 0#32
  let c1_i32 : BitVec 32 := 1#32
  let arg4 : BitVec 32 := Scf.iv c0_i32 c1_i32 k0_t1
  let v21 : Index := Scalar.indexCast arg4
  let c0_8 : Index := 0#32
  let c0_9 : Index := 0#32
  ![v21.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S32x256_S32x256_0_0 : ∀ a, (![0, 0] : Fin 2 → Nat) a + S32x256.size a ≤ S32x256.size a
  h_S32x256 : 0 < S32x256.numel
  bitsLt_bf16_f32 : FTy.bits .bf16 < FTy.bits .f32
  h_S1x2048x256 : 0 < S1x2048x256.numel
  shapeCasts_S1x2048x256_S2048x256 : S1x2048x256.ShapeCasts S2048x256
  reduces_S32x2048_S32 : S32x2048.Reduces [1] S32
  shapeCasts_S32_S32x1 : S32.ShapeCasts S32x1
  broadcasts_S32x1_S32x2048 : S32x1.Broadcasts S32x2048
  broadcasts_S32x1_S32x256 : S32x1.Broadcasts S32x256
  h_S1x32x256 : 0 < S1x32x256.numel
  shapeCasts_S1x32x256_S32x256 : S1x32x256.ShapeCasts S32x256
  shapeCasts_S32x256_S1x32x256 : S32x256.ShapeCasts S1x32x256
  dot_S32x256_S2048x256_S32x2048_1_1_0_0_n_n_wf : DotDims.WF S32x256 S2048x256 S32x2048 [1] [1] [0] [0] [] []
  dot_S32x2048_S2048x256_S32x256_1_0_0_1_n_n_wf : DotDims.WF S32x2048 S2048x256 S32x256 [1] [0] [0] [1] [] []
  hrank0 : 0 < grid0.rank
  k0_t1_ok : k0_t1_loop.OK
  k0_off1_inb : ∀ k0_t1 : Fin k0_t1_loop.trips, ∀ a, (k0_off1 k0_t1) a + S1x2048x256.size a ≤ S4x2048x256.size a
  k0_off2_inb : ∀ k0_t1 : Fin k0_t1_loop.trips, ∀ a, (k0_off2 k0_t1) a + S1x32x256.size a ≤ S4x32x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S32x256.size a
  hwx0_0 : ∀ i : grid0.Coords, EltTy.bits .f32 = 32 ∨ (Rect.block (s := S32x256) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2048x256.size a ≤ S64x2048x256.size a
  hwx0_1 : ∀ i : grid0.Coords, EltTy.bits .f32 = 32 ∨ (Rect.block (s := S64x2048x256) S4x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x32x256.size a ≤ S64x32x256.size a
  hwx0_2 : ∀ i : grid0.Coords, EltTy.bits .f32 = 32 ∨ (Rect.block (s := S64x32x256) S4x32x256.size (cc0_transform_2 i) (hinb0_2 i)).WholeWords (EltTy.packing .f32)

variable [Facts₀]

def dot_S32x256_S2048x256_S32x2048_1_1_0_0_n_n : DotDims S32x256 S2048x256 S32x2048 where
  lhsContracting := [1]
  rhsContracting := [1]
  lhsNonContracting := [0]
  rhsNonContracting := [0]
  lhsBatch := []
  rhsBatch := []
  wf := dot_S32x256_S2048x256_S32x2048_1_1_0_0_n_n_wf
def dot_S32x2048_S2048x256_S32x256_1_0_0_1_n_n : DotDims S32x2048 S2048x256 S32x256 where
  lhsContracting := [1]
  rhsContracting := [0]
  lhsNonContracting := [0]
  rhsNonContracting := [1]
  lhsBatch := []
  rhsBatch := []
  wf := dot_S32x2048_S2048x256_S32x256_1_0_0_1_n_n_wf

abbrev win0_0 : Pipeline.Window sig grid0 :=
  Pipeline.Window.ofSpec (Memref.whole main_arg1) S32x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x32x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x2048x256 : Shape := ⟨3, ![64, 2048, 256]⟩
abbrev S32x256 : Shape := ⟨2, ![32, 256]⟩
abbrev S64x2048x32 : Shape := ⟨3, ![64, 2048, 32]⟩
abbrev S_ : Shape := ⟨0, ![]⟩
abbrev S64x32 : Shape := ⟨2, ![64, 32]⟩
abbrev S64x1x32 : Shape := ⟨3, ![64, 1, 32]⟩
abbrev S64x32x256 : Shape := ⟨3, ![64, 32, 256]⟩

abbrev nBuf : Space → Nat
  | .hbm => 18
  | .vmem => 0
  | .smem => 0
  | _ => 0

abbrev bufTy : (tb : Table) → Fin (tcTables nBuf tb) → BufTy
  | .hbm, ⟨0, _⟩ => ⟨S64x2048x256, .f32⟩
  | .hbm, ⟨1, _⟩ => ⟨S32x256, .f32⟩
  | .hbm, ⟨2, _⟩ => ⟨S64x2048x32, .f32⟩
  | .hbm, ⟨3, _⟩ => ⟨S_, .f32⟩
  | .hbm, ⟨4, _⟩ => ⟨S64x32, .f32⟩
  | .hbm, ⟨5, _⟩ => ⟨S_, .f32⟩
  | .hbm, ⟨6, _⟩ => ⟨S64x32, .f32⟩
  | .hbm, ⟨7, _⟩ => ⟨S64x32, .f32⟩
  | .hbm, ⟨8, _⟩ => ⟨S64x1x32, .f32⟩
  | .hbm, ⟨9, _⟩ => ⟨S64x2048x32, .f32⟩
  | .hbm, ⟨10, _⟩ => ⟨S64x2048x32, .f32⟩
  | .hbm, ⟨11, _⟩ => ⟨S64x2048x32, .f32⟩
  | .hbm, ⟨12, _⟩ => ⟨S_, .f32⟩
  | .hbm, ⟨13, _⟩ => ⟨S64x32, .f32⟩
  | .hbm, ⟨14, _⟩ => ⟨S64x1x32, .f32⟩
  | .hbm, ⟨15, _⟩ => ⟨S64x2048x32, .f32⟩
  | .hbm, ⟨16, _⟩ => ⟨S64x2048x32, .f32⟩
  | .hbm, ⟨17, _⟩ => ⟨S64x32x256, .f32⟩
  | _, _ => ⟨S64x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S64x2048x32_S64x32_d1 : S64x2048x32.ReducesTo [1] S64x32
  h_S_ : 0 < S_.numel
  bcast_S_S64x32 : S_.BroadcastsInDim S64x32 (![] : Fin 0 → Fin S64x32.rank)
  bcast_S64x32_S64x1x32_0_2 : S64x32.BroadcastsInDim S64x1x32 (![0, 2] : Fin 2 → Fin S64x1x32.rank)
  bcast_S64x1x32_S64x2048x32_0_1_2 : S64x1x32.BroadcastsInDim S64x2048x32 (![0, 1, 2] : Fin 3 → Fin S64x2048x32.rank)
  dot_S64x2048x256_S32x256_S64x2048x32_2_1_01_0_n_n_wf : DotDims.WF S64x2048x256 S32x256 S64x2048x32 [2] [1] [0, 1] [0] [] []
  dot_S64x2048x32_S64x2048x256_S64x32x256_1_1_2_2_0_0_wf : DotDims.WF S64x2048x32 S64x2048x256 S64x32x256 [1] [1] [2] [2] [0] [0]

variable [Facts₀]

def dot_S64x2048x256_S32x256_S64x2048x32_2_1_01_0_n_n : DotDims S64x2048x256 S32x256 S64x2048x32 where
  lhsContracting := [2]
  rhsContracting := [1]
  lhsNonContracting := [0, 1]
  rhsNonContracting := [0]
  lhsBatch := []
  rhsBatch := []
  wf := dot_S64x2048x256_S32x256_S64x2048x32_2_1_01_0_n_n_wf
def dot_S64x2048x32_S64x2048x256_S64x32x256_1_1_2_2_0_0 : DotDims S64x2048x32 S64x2048x256 S64x32x256 where
  lhsContracting := [1]
  rhsContracting := [1]
  lhsNonContracting := [2]
  rhsNonContracting := [2]
  lhsBatch := [0]
  rhsBatch := [0]
  wf := dot_S64x2048x32_S64x2048x256_S64x32x256_1_1_2_2_0_0_wf

class Facts : Prop extends Facts₀ where

variable [Facts]
-- ==== Proof.Spec.lean ====
/-
  Softmax pooling over the sequence axis, as one function of the two argument arrays on the extended reals.

  For a batch `b` and a code `k` the scores are `s l = Σ_d w[k,d] · x[b,l,d]` (l over the 2048 positions), their
  maximum `top s` is taken from -∞, the weights are `exp (s l - top s)` and their sum is `mass s`. The pooled value
  at feature `d` is written in two ways: the weighted sum of the values, then ONE multiplication by `1 / mass`
  (`pooled`), or the sum of the values each weighted by `weight / mass` (`pooledRef`). The two are the same number
  when scores and values are real: then the maximum is real (there is at least one position), every weight is a
  positive real, the mass is a positive real, and the identity is `(Σ e·v)·c = Σ (e·c)·v` in ℝ. (On the extended
  reals it can fail: a factor cannot be moved across a sum that holds infinities.)
-/
import Idealize.ShloMosaic.PureOps.Ideal
import Idealize.ShloMosaic.PureOps.Ideal.Laws
import Idealize.ShloMosaic.Lib.ValueIdx
import Idealize.ShloMosaic.Lib.IdealHost

noncomputable section

namespace Cert.Pool

open Idealize.ShloMosaic Idealize.ShloMosaic.ValueIdx

/-- The word of -∞ is the bottom of the extended reals. -/
theorem ofBits_neg_inf : Ideal.ofBits .f32 0xFF800000#32 = ⊥ := by simp [Ideal.ofBits, Ideal.ieee]

/-! ## Over abstract finite index types -/

section Abstract

variable {L D : Type} [Fintype L] [Fintype D]

/-- The score of position `l`: the code vector against that position's features. -/
def score (w : D → EReal) (x : L → D → EReal) (l : L) : EReal := ∑ d, w d * x l d

/-- The largest score, from -∞. -/
def top (s : L → EReal) : EReal := Finset.univ.fold max ⊥ s

/-- The unnormalized softmax weight of position `l`. -/
def weight (s : L → EReal) (l : L) : EReal := Ideal.exp (s l - top s)

/-- The sum of the weights. -/
def mass (s : L → EReal) : EReal := ∑ l, weight s l

/-- The weighted sum of the values, normalized afterwards by one product with the reciprocal of the mass. -/
def pooled (s v : L → EReal) : EReal := (∑ l, weight s l * v l) * Ideal.div 1 (mass s)

/-- The sum of the values, each weighted by its normalized weight. -/
def pooledRef (s v : L → EReal) : EReal := ∑ l, Ideal.div (weight s l) (mass s) * v l

/-- A finite sum of reals, as an extended real, is the sum of the reals as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Real code vector and real features give real scores. -/
theorem score_coe (wr : D → ℝ) (xr : L → D → ℝ) (l : L) :
    score (fun d => (wr d : EReal)) (fun l d => (xr l d : EReal)) l = ((∑ d, wr d * xr l d : ℝ) : EReal) := by
  unfold score
  rw [coe_sum]
  exact Finset.sum_congr rfl fun d _ => (EReal.coe_mul _ _).symm

/-- The largest of real scores, over at least one position, is real. -/
theorem top_coe [Nonempty L] (sr : L → ℝ) : ∃ M : ℝ, top (fun l => (sr l : EReal)) = (M : EReal) := by
  have hlt : top (fun l => (sr l : EReal)) < ⊤ := by
    unfold top
    rw [Finset.fold_max_lt]
    exact ⟨bot_lt_top, fun l _ => EReal.coe_lt_top _⟩
  have hgt : ⊥ < top (fun l => (sr l : EReal)) := by
    obtain ⟨l0⟩ := ‹Nonempty L›
    unfold top
    rw [Finset.lt_fold_max]
    exact Or.inr ⟨l0, Finset.mem_univ _, EReal.bot_lt_coe (sr l0)⟩
  exact ⟨(top (fun l => (sr l : EReal))).toReal, (EReal.coe_toReal hlt.ne hgt.ne').symm⟩

/-- THE LAW: with real scores and real values, normalizing after the weighted sum or before it gives one number. -/
theorem pooled_eq_pooledRef [Nonempty L] (s v : L → EReal) (hs : ∀ l, ∃ r : ℝ, s l = (r : EReal))
    (hv : ∀ l, ∃ r : ℝ, v l = (r : EReal)) : pooled s v = pooledRef s v := by
  choose sr hsr using hs
  choose vr hvr using hv
  obtain rfl : s = fun l => (sr l : EReal) := funext hsr
  obtain rfl : v = fun l => (vr l : EReal) := funext hvr
  obtain ⟨M, hM⟩ := top_coe sr
  have hw : ∀ l, weight (fun l => (sr l : EReal)) l = ((Real.exp (sr l - M) : ℝ) : EReal) := by
    intro l
    unfold weight
    rw [hM, ← EReal.coe_sub, Ideal.exp_coe]
  have hmass : mass (fun l => (sr l : EReal)) = ((∑ l, Real.exp (sr l - M) : ℝ) : EReal) := by
    unfold mass
    rw [coe_sum]
    exact Finset.sum_congr rfl fun l _ => hw l
  have hpos : (0 : ℝ) < ∑ l, Real.exp (sr l - M) :=
    Finset.sum_pos (fun l _ => Real.exp_pos _) Finset.univ_nonempty
  unfold pooled pooledRef
  rw [hmass]
  simp only [hw, Ideal.div_coe hpos.ne', one_mul]
  simp only [← EReal.coe_mul, ← coe_sum]
  refine congrArg _ ?_
  rw [Finset.sum_mul]
  exact Finset.sum_congr rfl fun l _ => by ring

end Abstract

/-! ## Over the arrays' shapes -/

/-- The scores of batch `b` against code `k`, position by position. -/
def scoresAt (x : (⟨3, ![64, 2048, 256]⟩ : Shape).Idx → EReal) (w : (⟨2, ![32, 256]⟩ : Shape).Idx → EReal)
    (b : Fin 64) (k : Fin 32) : Fin 2048 → EReal :=
  score (fun d : Fin 256 => w (ix2 k d)) (fun (l : Fin 2048) (d : Fin 256) => x (ix3 b l d))

/-- Feature `d` of batch `b`, position by position. -/
def valuesAt (x : (⟨3, ![64, 2048, 256]⟩ : Shape).Idx → EReal) (b : Fin 64) (d : Fin 256) : Fin 2048 → EReal :=
  fun l => x (ix3 b l d)

/-- Entry (b, k, d) of the result, normalized after pooling. -/
def pooledAt (x : (⟨3, ![64, 2048, 256]⟩ : Shape).Idx → EReal) (w : (⟨2, ![32, 256]⟩ : Shape).Idx → EReal)
    (b : Fin 64) (k : Fin 32) (d : Fin 256) : EReal :=
  pooled (scoresAt x w b k) (valuesAt x b d)

/-- Entry (b, k, d) of the result, normalized before pooling. -/
def pooledRefAt (x : (⟨3, ![64, 2048, 256]⟩ : Shape).Idx → EReal) (w : (⟨2, ![32, 256]⟩ : Shape).Idx → EReal)
    (b : Fin 64) (k : Fin 32) (d : Fin 256) : EReal :=
  pooledRef (scoresAt x w b k) (valuesAt x b d)

/-- THE RESULT ARRAY, normalized after pooling. -/
def pooledArray (x : (⟨3, ![64, 2048, 256]⟩ : Shape).Idx → EReal) (w : (⟨2, ![32, 256]⟩ : Shape).Idx → EReal) :
    (⟨3, ![64, 32, 256]⟩ : Shape).Idx → EReal :=
  fun i => pooledAt x w (i 0) (i 1) (i 2)

/-- The result array, normalized before pooling. -/
def pooledArrayRef (x : (⟨3, ![64, 2048, 256]⟩ : Shape).Idx → EReal) (w : (⟨2, ![32, 256]⟩ : Shape).Idx → EReal) :
    (⟨3, ![64, 32, 256]⟩ : Shape).Idx → EReal :=
  fun i => pooledRefAt x w (i 0) (i 1) (i 2)

/-- With every entry of both argument arrays real, the two spellings of an entry are one number. -/
theorem pooledAt_eq_ref (x : (⟨3, ![64, 2048, 256]⟩ : Shape).Idx → EReal) (w : (⟨2, ![32, 256]⟩ : Shape).Idx → EReal)
    (hx : ∀ i, ∃ r : ℝ, x i = (r : EReal)) (hw : ∀ i, ∃ r : ℝ, w i = (r : EReal))
    (b : Fin 64) (k : Fin 32) (d : Fin 256) : pooledAt x w b k d = pooledRefAt x w b k d := by
  choose xr hxr using hx
  choose wr hwr using hw
  refine pooled_eq_pooledRef _ _ (fun l => ?_) (fun l => ⟨_, hxr _⟩)
  refine ⟨_, (?_ : _ = _).trans (score_coe (fun d' : Fin 256 => wr (ix2 k d'))
    (fun (l : Fin 2048) (d' : Fin 256) => xr (ix3 b l d')) l)⟩
  unfold scoresAt score
  exact Finset.sum_congr rfl fun d' _ => congrArg₂ (· * ·) (hwr _) (hxr _)

/-- So the two result arrays are one. -/
theorem pooledArray_eq_ref (x : (⟨3, ![64, 2048, 256]⟩ : Shape).Idx → EReal) (w : (⟨2, ![32, 256]⟩ : Shape).Idx → EReal)
    (hx : ∀ i, ∃ r : ℝ, x i = (r : EReal)) (hw : ∀ i, ∃ r : ℝ, w i = (r : EReal)) :
    pooledArray x w = pooledArrayRef x w :=
  funext fun i => pooledAt_eq_ref x w hx hw (i 0) (i 1) (i 2)

end Cert.Pool

end
-- ==== Proof.Finite.lean ====
/-
  From the precondition to real entries.

  The precondition says: every entry of both argument arrays has absolute value below the word of +∞, and all of
  these comparisons hold at once (two conjunctions over all entries, joined by one more). On the extended reals the
  word of +∞ is the top element, `|x| < ⊤` rules out both infinities, and what is left is a real number.
-/
import proofs.«114220_j15642270892408_2_alg».proof.Pre_finite_inputs
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

noncomputable section

namespace Cert.Pre_finite_inputs.Finite

open Cert.Pre_finite_inputs Idealize.ShloMosaic Idealize.ShloMosaic.ValueIdx

instance : Subsingleton S_.Idx := ⟨fun _ _ => funext fun d => d.elim0⟩

/-- The word of +∞ is the top of the extended reals. -/
theorem ofBits_pos_inf : Ideal.ofBits .f32 0x7F800000#32 = ⊤ := by simp [Ideal.ofBits, Ideal.ieee]

/-- An extended real whose absolute value compares below the word of +∞ is a real number. -/
theorem real_of_abs_lt (x : EReal) (h : Ideal.cmp .olt (max x (-x)) (Ideal.ofBits .f32 0x7F800000#32) = 1#1) :
    ∃ r : ℝ, x = (r : EReal) := by
  rw [ofBits_pos_inf] at h
  have hlt : max x (-x) < ⊤ := by
    by_contra hn
    simp [Ideal.cmp, hn] at h
  induction x using EReal.rec with
  | bot => simp at hlt
  | coe r => exact ⟨r, rfl⟩
  | top => simp at hlt

variable [Facts]

/-- Under the precondition every entry of both argument arrays is a real number. -/
theorem real_of_pre (X : FVec Ideal S64x2048x256 .f32) (W : FVec Ideal S32x256 .f32)
    (h : fn (F := Ideal) X W = fun _ => 1#1) :
    (∀ i, ∃ r : ℝ, X i = (r : EReal)) ∧ (∀ i, ∃ r : ℝ, W i = (r : EReal)) := by
  have h0 := congrFun h ix0
  dsimp only [fn] at h0
  obtain ⟨hA, hB⟩ := IntOp.andi_eq_one.1 h0
  refine ⟨fun i => ?_, fun i => ?_⟩
  · exact real_of_abs_lt (X i) (Host.reduce_andi_all _ _ _ _ _ hA i)
  · exact real_of_abs_lt (W i) (Host.reduce_andi_all _ _ _ _ _ hB i)

end Cert.Pre_finite_inputs.Finite

end
-- ==== Proof.RefValue.lean ====
/-
  The reference's result, stage by stage, is the pooled array normalized BEFORE pooling.

  The reference computes the scores of every (batch, position, code) by one contraction over the features, takes
  the maximum over the positions from -∞ (and once more against -∞, which changes nothing), subtracts it, exponentiates,
  sums over the positions from zero, divides each weight by that sum and contracts the normalized weights with the
  features over the positions, batch by batch. Each stage is read at coordinates (b, l, k) or (b, k); the scores
  differ from the specification's only in the order of the two factors of each product.
-/
import proofs.«114220_j15642270892408_2_alg».proof.Proof.Gen.ReferenceIdeal.Read
import proofs.«114220_j15642270892408_2_alg».proof.Proof.Spec
import Idealize.ShloMosaic.PureOps.Reduce

noncomputable section

namespace Cert.ReferenceIdeal.RefValue

open Cert.ReferenceIdeal Cert.ReferenceIdeal.Gen Cert.ReferenceIdeal.Read Idealize.ShloMosaic
open Idealize.ShloMosaic.ValueIdx Cert.Pool

variable (x0 : (⟨S64x2048x256, .f32⟩ : BufTy).Contents (Elt Ideal)) (x1 : (⟨S32x256, .f32⟩ : BufTy).Contents (Elt Ideal))

/-- The scores: entry (b, l, k) is the specification's score of position `l` for batch `b` and code `k`. -/
theorem scores_at (b : Fin 64) (l : Fin 2048) (k : Fin 32) :
    val_main_v0 (F := Ideal) x0 x1 (ix3 b l k) = scoresAt x0 x1 b k l := by
  rw [val_main_v0_apply]
  unfold scoresAt score
  refine Finset.sum_congr rfl fun d _ => ?_
  rw [mul_comm]
  refine congrArg₂ (· * ·) (congrArg x1 ?_) (congrArg x0 ?_)
  · funext a; match a with | ⟨0, _⟩ => rfl | ⟨1, _⟩ => rfl
  · funext a; match a with | ⟨0, _⟩ => rfl | ⟨1, _⟩ => rfl | ⟨2, _⟩ => rfl

theorem reduces_d1 : S64x2048x32.Reduces [1] S64x32 := by decide

/-- The maximum over the positions, taken once more against -∞: the specification's `top`. -/
theorem top_at (b : Fin 64) (k : Fin 32) :
    val_main_v3 (F := Ideal) x0 x1 (ix2 b k) = top (scoresAt x0 x1 b k) := by
  rw [val_main_v3_apply, val_main_v2_apply, val_main_cst_0_apply]
  unfold val_main_v1
  rw [Host.reduce_eq_fold_single FloatOps.maximumf _ _ reducesTo_S64x2048x32_S64x32_d1 reduces_d1 h_S_]
  rw [val_main_cst_apply]
  simp only [Ideal.ofBits_def, Ideal.maximumf_def, ofBits_neg_inf]
  rw [max_eq_right bot_le]
  unfold top
  refine Finset.fold_congr fun l _ => ?_
  show val_main_v0 (F := Ideal) x0 x1 (reduces_d1.lift (ix2 b k) l) = _
  refine Eq.trans (congrArg _ (funext fun a => Fin.ext ?_)) (scores_at x0 x1 b l k)
  match a with | ⟨0, _⟩ => rfl | ⟨1, _⟩ => rfl | ⟨2, _⟩ => rfl

/-- The exponentials: entry (b, l, k) is the specification's weight. -/
theorem weight_at (b : Fin 64) (l : Fin 2048) (k : Fin 32) :
    val_main_v7 (F := Ideal) x0 x1 (ix3 b l k) = weight (scoresAt x0 x1 b k) l := by
  rw [val_main_v7_apply, val_main_v6_apply, val_main_v5_apply, val_main_v4_apply, scores_at]
  have e : idx_main_v4 (idx_main_v5 (ix3 b l k)) = ix2 b k := by
    funext a; match a with | ⟨0, _⟩ => rfl | ⟨1, _⟩ => rfl
  rw [e, top_at]
  rfl

/-- The sum of the exponentials from zero: the specification's mass. -/
theorem mass_at (b : Fin 64) (k : Fin 32) :
    val_main_v8 (F := Ideal) x0 x1 (ix2 b k) = mass (scoresAt x0 x1 b k) := by
  rw [val_main_v8_apply, val_main_cst_1_apply]
  simp only [Ideal.ofBits_def, Ideal.ofBits_zero_f32, zero_add]
  unfold mass
  refine Finset.sum_congr rfl fun l _ => ?_
  rw [← weight_at]
  refine congrArg _ (funext fun a => ?_)
  match a with | ⟨0, _⟩ => rfl | ⟨1, _⟩ => rfl | ⟨2, _⟩ => rfl

/-- The normalized weights. -/
theorem normalized_at (b : Fin 64) (l : Fin 2048) (k : Fin 32) :
    val_main_v11 (F := Ideal) x0 x1 (ix3 b l k) = Ideal.div (weight (scoresAt x0 x1 b k) l) (mass (scoresAt x0 x1 b k)) := by
  rw [val_main_v11_apply, val_main_v10_apply, val_main_v9_apply, weight_at]
  have e : idx_main_v9 (idx_main_v10 (ix3 b l k)) = ix2 b k := by
    funext a; match a with | ⟨0, _⟩ => rfl | ⟨1, _⟩ => rfl
  rw [e, mass_at]
  rfl

/-- THE REFERENCE'S RESULT is the pooled array normalized before pooling. -/
theorem result_eq : val_main_v12 (F := Ideal) x0 x1 = pooledArrayRef x0 x1 := by
  funext i
  obtain ⟨b, k, d, rfl⟩ : ∃ (b : Fin 64) (k : Fin 32) (d : Fin 256), i = ix3 b k d := ⟨i 0, i 1, i 2, eq_ix3 i⟩
  rw [val_main_v12_apply]
  show _ = pooledRef (scoresAt x0 x1 b k) (valuesAt x0 b d)
  unfold pooledRef
  refine Finset.sum_congr rfl fun l _ => ?_
  refine congrArg₂ (· * ·) ?_ ?_
  · rw [← normalized_at]
    refine congrArg _ (funext fun a => ?_)
    match a with | ⟨0, _⟩ => rfl | ⟨1, _⟩ => rfl | ⟨2, _⟩ => rfl
  · unfold valuesAt
    refine congrArg x0 (funext fun a => ?_)
    match a with | ⟨0, _⟩ => rfl | ⟨1, _⟩ => rfl | ⟨2, _⟩ => rfl

end Cert.ReferenceIdeal.RefValue

end
-- ==== Proof.PointValue.lean ====
/-
  What one grid point leaves in its output block.

  The body walks the four batches of its input block in a counted loop; trip `k` reads batch `k` (a block of
  2048 rows of 256 features), computes the pooled codes of that batch from it and from the 32 code vectors, and
  stores them as batch `k` of the output block. So entry (b, k, d) of the output block depends on batch `b` of
  the input block only: it is the trip's value at (0, k, d) computed from that batch. The stores of the four
  trips tile the block, hence the block read back is that function everywhere.
-/
import proofs.«114220_j15642270892408_2_alg».proof.Proof.Gen.KernelIdeal.Frame
import Idealize.ShloMosaic.Lib.Writes
import Idealize.ShloMosaic.Lib.Pipeline.Value
import Idealize.ShloMosaic.Lib.ValueIdx

set_option maxRecDepth 16384

noncomputable section

namespace Cert.KernelIdeal.Point

open Cert.KernelIdeal Cert.KernelIdeal.Gen Idealize.ShloMosaic Idealize.ShloMosaic.TcCoe Idealize.SL.Sem
open Idealize.ShloMosaic.ValueIdx

variable {F : FTy → Type} [FloatOps F]

/-- Batch `b` of a block of four batches, as a block of one batch. -/
def batchOf (x1 : Vec F S4x2048x256 .f32) (b : Fin 4) : Vec F S1x2048x256 .f32 :=
  fun z => x1 (ix3 b (z 1) (z 2))

/-- The output block of a point: entry (b, k, d) is the trip's value at (0, k, d), computed from the code
    vectors `v0` and batch `b` of the input block `x1`. -/
def pointOut (v0 : Vec F S32x256 .f32) (x1 : Vec F S4x2048x256 .f32) : Vec F S4x32x256 .f32 :=
  fun y => k0_pay1 v0 (batchOf x1 (y 0)) (ix3 0 (y 1) (y 2))

/-- Trip `k` loads batch `k` and stores at batch `k`: its stored value, at a local index, is `pointOut` at the place
    of the output block where the store puts it. -/
theorem trip_piece (v0 : Vec F S32x256 .f32) (x1 : Vec F S4x2048x256 .f32) (k : Fin k0_t1_loop.trips) (x : S1x32x256.Idx) :
    k0_pay1 v0 (View.ld x1 (Rect.unit (s := S4x2048x256) (k0_off1 k) S1x2048x256.size (k0_off1_inb k))) x
      = pointOut v0 x1 ((Rect.unit (s := S4x32x256) (k0_off2 k) S1x32x256.size (k0_off2_inb k)).emb x) := by
  have hk : k.val < 4 := Nat.lt_of_lt_of_le k.isLt k0_t1_abs.2.1
  have o10 : k0_off1 k 0 = k.val := congrFun (k0_off1_eq k) 0
  have o11 : k0_off1 k 1 = 0 := congrFun (k0_off1_eq k) 1
  have o12 : k0_off1 k 2 = 0 := congrFun (k0_off1_eq k) 2
  have o20 : k0_off2 k 0 = k.val := congrFun (k0_off2_eq k) 0
  have o21 : k0_off2 k 1 = 0 := congrFun (k0_off2_eq k) 1
  have o22 : k0_off2 k 2 = 0 := congrFun (k0_off2_eq k) 2
  have hx0 : (x 0).val < 1 := (x 0).isLt
  unfold pointOut
  have e1 : View.ld x1 (Rect.unit (s := S4x2048x256) (k0_off1 k) S1x2048x256.size (k0_off1_inb k))
      = batchOf x1 (((Rect.unit (s := S4x32x256) (k0_off2 k) S1x32x256.size (k0_off2_inb k)).emb x) 0) := by
    funext z
    have hz0 : (z 0).val < 1 := (z 0).isLt
    refine congrArg x1 (funext fun a => Fin.ext ?_)
    match a with
    | ⟨0, _⟩ =>
      show k0_off1 k 0 + 1 * (z 0).val = k0_off2 k 0 + 1 * (x 0).val
      omega
    | ⟨1, _⟩ =>
      show k0_off1 k 1 + 1 * (z 1).val = (z 1).val
      omega
    | ⟨2, _⟩ =>
      show k0_off1 k 2 + 1 * (z 2).val = (z 2).val
      omega
  have e2 : x = ix3 0 (((Rect.unit (s := S4x32x256) (k0_off2 k) S1x32x256.size (k0_off2_inb k)).emb x) 1)
      (((Rect.unit (s := S4x32x256) (k0_off2 k) S1x32x256.size (k0_off2_inb k)).emb x) 2) := by
    funext a; apply Fin.ext
    match a with
    | ⟨0, _⟩ => show (x 0).val = 0; omega
    | ⟨1, _⟩ => show (x 1).val = k0_off2 k 1 + 1 * (x 1).val; omega
    | ⟨2, _⟩ => show (x 2).val = k0_off2 k 2 + 1 * (x 2).val; omega
  rw [e1]
  exact congrArg (k0_pay1 v0 _) e2

/-- Every piece the loop's trips before `n` stored agrees with `pointOut` of the loaded code vectors and of the
    input block read back. -/
theorem pieces_agree (𝒱 : Variants) (c : Dev nD) (bd : Option 𝒱.V) (i : grid0.Coords)
    (arg1 : Memref sig .tc .vmem S32x256 .f32) (harg1 : arg1.IsWhole)
    (arg2 : Memref sig .tc .vmem S4x2048x256 .f32) (harg2 : arg2.IsWhole)
    (arg3 : Memref sig .tc .vmem S4x32x256 .f32) (harg3 : arg3.IsWhole)
    (v0 : Vec F S32x256 .f32) (X : BufTy.Contents (Elt F) arg2.view.ty) :
    ∀ n : ℕ, ∀ p ∈ pb_k0_t1 (F := F) 𝒱 c bd i arg1 harg1 arg2 harg2 arg3 harg3 v0 X n,
      ∀ x : p.1.shape.Idx, p.2 x = pointOut v0 (arg2.view.read (Elt F) X) (p.1.emb x)
  | 0 => fun p hp => by rw [pb_k0_t1.eq_1] at hp; exact absurd hp List.not_mem_nil
  | n + 1 => by
    intro p hp
    rw [pb_k0_t1.eq_2] at hp
    unfold pb_k0_t1Step at hp
    split at hp
    · rename_i hn
      rcases List.mem_append.mp hp with h | h
      · unfold tripL_k0_t1 trip_k0_t1 at h
        dsimp only at h
        rw [List.mem_singleton] at h
        subst h
        intro x
        exact trip_piece v0 (arg2.view.read (Elt F) X) ⟨n, hn⟩ x
      · exact pieces_agree 𝒱 c bd i arg1 harg1 arg2 harg2 arg3 harg3 v0 X n p h
    · exact pieces_agree 𝒱 c bd i arg1 harg1 arg2 harg2 arg3 harg3 v0 X n p hp

theorem hz2 : (![0, 0] : Fin 2 → Nat) = fun _ => 0 := funext fun a => by fin_cases a <;> rfl

/-- THE OUTPUT BLOCK OF A POINT, on any staging memrefs: `pointOut` of the two input blocks. -/
theorem out_eq (c : Dev nD) (i : grid0.Coords)
    (arg1 : Memref sig .tc .vmem S32x256 .f32) (harg1 : arg1.IsWhole)
    (arg2 : Memref sig .tc .vmem S4x2048x256 .f32) (harg2 : arg2.IsWhole)
    (arg3 : Memref sig .tc .vmem S4x32x256 .f32) (harg3 : arg3.IsWhole)
    (x0 : Vec F S32x256 .f32) (x1 : Vec F S4x2048x256 .f32) :
    out0_A_2 c i arg1 harg1 arg2 harg2 arg3 harg3 x0 x1 = pointOut x0 x1 := by
  funext y
  unfold out0_A_2
  refine View.read_writes_apply_of_pieces _ _ (pointOut x0 x1) _ ?_ y
    (cover0_A_2 c i arg1 harg1 arg2 harg2 arg3 harg3 x0 x1 y)
  unfold kernelRun0_A
  dsimp only
  have hv0 : View.readAt (Elt F) arg1.view (Rect.unit (s := S32x256) ![0, 0] ![32, 256] inb_S32x256_S32x256_0_0).toLoadRect
      (harg1.unread x0) = x0 := by
    rw [View.readAt_eq_ld, harg1.read_unread]
    exact View.ld_unit_zero (S := S32x256) hz2 inb_S32x256_S32x256_0_0 x0
  rw [hv0]
  have h := pieces_agree (F := F) Variants.none c none i arg1 harg1 arg2 harg2 arg3 harg3 x0
    (harg2.unread x1) (Scf.trips (0#32) (Scalar.addi 0#32 4#32) 1#32)
  rw [harg2.read_unread] at h
  exact h

end Cert.KernelIdeal.Point

end
-- ==== Proof.TripValue.lean ====
/-
  One trip's arithmetic, read at an index on the extended reals.

  From the 32 code vectors `v0` and one batch `v4` (2048 positions of 256 features) a trip computes, for code `k`:
  the scores `s l = Σ_d v0[k,d] · v4[l,d]` (a matrix product into a zero accumulator), their maximum over the positions
  from -∞, the weights `exp (s l - max)`, their sum from zero, its reciprocal `1 / sum`, the weighted sums
  `Σ_l weight l · v4[l,d]` (a second matrix product into a zero accumulator) and finally the product of the two:
  the specification's `pooled`. A change of float format is the identity on the extended reals, so the two
  narrowings to bf16 disappear.
-/
import proofs.«114220_j15642270892408_2_alg».proof.Proof.Gen.KernelIdeal.Skeleton
import proofs.«114220_j15642270892408_2_alg».proof.Proof.Spec
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.Trip

open Cert.KernelIdeal Cert.KernelIdeal.Gen Idealize.ShloMosaic Idealize.ShloMosaic.ValueIdx Cert.Pool

/-! ## Two layout operations on a column -/

/-- A vector of `a` entries cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The trip's intermediate values -/

variable (v0 : FVec Ideal S32x256 .f32) (v4 : FVec Ideal S1x2048x256 .f32)

/-- The batch as a matrix of positions by features. -/
def batch : FVec Ideal S2048x256 .bf16 :=
  truncf .bf16 (shapeCast S2048x256 v4 shapeCasts_S1x2048x256_S2048x256) bitsLt_bf16_f32

/-- The scores, codes by positions. -/
def scores : FVec Ideal S32x2048 .f32 :=
  matmul dot_S32x256_S2048x256_S32x2048_1_1_0_0_n_n none (truncf .bf16 v0 bitsLt_bf16_f32) (batch v4) (constant (F := Ideal) S32x2048 .f32 0x00000000#32)

/-- Each code's largest score. -/
def tops : FVec Ideal S32 .f32 :=
  multiReduction (F := Ideal) .maximumf [1] S32 (scores v0 v4) 0xFF800000#32 reduces_S32x2048_S32 (.inl rfl) rfl

/-- The weights, codes by positions. -/
def weights : FVec Ideal S32x2048 .f32 :=
  exp (subf (scores v0 v4) (broadcastTo S32x2048 (shapeCast S32x1 (tops v0 v4) shapeCasts_S32_S32x1) broadcasts_S32x1_S32x2048))

/-- Each code's sum of weights. -/
def masses : FVec Ideal S32 .f32 :=
  multiReduction (F := Ideal) .add [1] S32 (weights v0 v4) 0x00000000#32 reduces_S32x2048_S32 (.inl rfl) rfl

/-- The reciprocals of the masses, as a column. -/
def recips : FVec Ideal S32x1 .f32 :=
  divf (broadcast S32x1 (Scalar.ofBits (F := Ideal) .f32 0x3F800000#32)) (shapeCast S32x1 (masses v0 v4) shapeCasts_S32_S32x1)

/-- The weighted sums of the features, codes by features. -/
def sums : FVec Ideal S32x256 .f32 :=
  matmul dot_S32x2048_S2048x256_S32x256_1_0_0_1_n_n none (truncf .bf16 (weights v0 v4) bitsLt_bf16_f32) (batch v4) (constant (F := Ideal) S32x256 .f32 0x00000000#32)

/-- The trip's stored value is these, composed. -/
theorem pay_eq : k0_pay1 (F := Ideal) v0 v4
    = shapeCast S1x32x256 (mulf (sums v0 v4) (broadcastTo S32x256 (recips v0 v4) broadcasts_S32x1_S32x256)) shapeCasts_S32x256_S1x32x256 := rfl

/-! ## The two contractions' operand indices -/

theorem lhs1_0 (i : S32x2048.Idx) (q : dot_S32x256_S2048x256_S32x2048_1_1_0_0_n_n.contr.Idx) : (dot_S32x256_S2048x256_S32x2048_1_1_0_0_n_n.lhsIdx i q 0).val = (i 0).val := by
  unfold DotDims.lhsIdx
  rw [dif_neg (show ¬(0 : Fin S32x256.rank) ∈ dot_S32x256_S2048x256_S32x2048_1_1_0_0_n_n.lhsBatch by decide), dif_pos (show (0 : Fin S32x256.rank) ∈ dot_S32x256_S2048x256_S32x2048_1_1_0_0_n_n.lhsNonContracting by decide)]
  rfl
theorem lhs1_1 (i : S32x2048.Idx) (q : dot_S32x256_S2048x256_S32x2048_1_1_0_0_n_n.contr.Idx) : (dot_S32x256_S2048x256_S32x2048_1_1_0_0_n_n.lhsIdx i q 1).val = (q ⟨0, by decide⟩).val :=
  dot_S32x256_S2048x256_S32x2048_1_1_0_0_n_n.lhsIdx_val_of_single rfl i q
theorem rhs1_0 (i : S32x2048.Idx) (q : dot_S32x256_S2048x256_S32x2048_1_1_0_0_n_n.contr.Idx) : (dot_S32x256_S2048x256_S32x2048_1_1_0_0_n_n.rhsIdx i q 0).val = (i 1).val := by
  unfold DotDims.rhsIdx
  rw [dif_neg (show ¬(0 : Fin S2048x256.rank) ∈ dot_S32x256_S2048x256_S32x2048_1_1_0_0_n_n.rhsBatch by decide), dif_pos (show (0 : Fin S2048x256.rank) ∈ dot_S32x256_S2048x256_S32x2048_1_1_0_0_n_n.rhsNonContracting by decide)]
  rfl
theorem rhs1_1 (i : S32x2048.Idx) (q : dot_S32x256_S2048x256_S32x2048_1_1_0_0_n_n.contr.Idx) : (dot_S32x256_S2048x256_S32x2048_1_1_0_0_n_n.rhsIdx i q 1).val = (q ⟨0, by decide⟩).val :=
  dot_S32x256_S2048x256_S32x2048_1_1_0_0_n_n.rhsIdx_val_of_single rfl i q

theorem lhs2_0 (i : S32x256.Idx) (q : dot_S32x2048_S2048x256_S32x256_1_0_0_1_n_n.contr.Idx) : (dot_S32x2048_S2048x256_S32x256_1_0_0_1_n_n.lhsIdx i q 0).val = (i 0).val := by
  unfold DotDims.lhsIdx
  rw [dif_neg (show ¬(0 : Fin S32x2048.rank) ∈ dot_S32x2048_S2048x256_S32x256_1_0_0_1_n_n.lhsBatch by decide), dif_pos (show (0 : Fin S32x2048.rank) ∈ dot_S32x2048_S2048x256_S32x256_1_0_0_1_n_n.lhsNonContracting by decide)]
  rfl
theorem lhs2_1 (i : S32x256.Idx) (q : dot_S32x2048_S2048x256_S32x256_1_0_0_1_n_n.contr.Idx) : (dot_S32x2048_S2048x256_S32x256_1_0_0_1_n_n.lhsIdx i q 1).val = (q ⟨0, by decide⟩).val :=
  dot_S32x2048_S2048x256_S32x256_1_0_0_1_n_n.lhsIdx_val_of_single rfl i q
theorem rhs2_0 (i : S32x256.Idx) (q : dot_S32x2048_S2048x256_S32x256_1_0_0_1_n_n.contr.Idx) : (dot_S32x2048_S2048x256_S32x256_1_0_0_1_n_n.rhsIdx i q 0).val = (q ⟨0, by decide⟩).val :=
  dot_S32x2048_S2048x256_S32x256_1_0_0_1_n_n.rhsIdx_val_of_single rfl i q
theorem rhs2_1 (i : S32x256.Idx) (q : dot_S32x2048_S2048x256_S32x256_1_0_0_1_n_n.contr.Idx) : (dot_S32x2048_S2048x256_S32x256_1_0_0_1_n_n.rhsIdx i q 1).val = (i 1).val := by
  unfold DotDims.rhsIdx
  rw [dif_neg (show ¬(1 : Fin S2048x256.rank) ∈ dot_S32x2048_S2048x256_S32x256_1_0_0_1_n_n.rhsBatch by decide), dif_pos (show (1 : Fin S2048x256.rank) ∈ dot_S32x2048_S2048x256_S32x256_1_0_0_1_n_n.rhsNonContracting by decide)]
  rfl

/-! ## Each value at an index -/

/-- Position `l`, feature `d` of the batch. -/
theorem batch_at (l : Fin 2048) (d : Fin 256) : batch v4 (ix2 l d) = v4 (ix3 (0 : Fin 1) l d) :=
  shapeCast_1ab_ab_apply v4 shapeCasts_S1x2048x256_S2048x256 l d

/-- The specification's scores of code `k` against the batch. -/
abbrev scoreOf (k : Fin 32) : Fin 2048 → EReal :=
  score (fun d : Fin 256 => v0 (ix2 k d)) (fun (l : Fin 2048) (d : Fin 256) => v4 (ix3 (0 : Fin 1) l d))

theorem scores_at (k : Fin 32) (l : Fin 2048) : scores v0 v4 (ix2 k l) = scoreOf v0 v4 k l := by
  refine (Ideal.matmul_constant_zero_apply dot_S32x256_S2048x256_S32x2048_1_1_0_0_n_n none (truncf .bf16 v0 bitsLt_bf16_f32) (batch v4) (ix2 k l)).trans ?_
  rw [← Equiv.sum_comp (contrEquiv1 dot_S32x256_S2048x256_S32x2048_1_1_0_0_n_n 256 rfl rfl).symm]
  refine Finset.sum_congr rfl fun d _ => ?_
  have hd := contrEquiv1_symm_val dot_S32x256_S2048x256_S32x2048_1_1_0_0_n_n 256 rfl rfl d
  have el : dot_S32x256_S2048x256_S32x2048_1_1_0_0_n_n.lhsIdx (ix2 k l) ((contrEquiv1 dot_S32x256_S2048x256_S32x2048_1_1_0_0_n_n 256 rfl rfl).symm d) = ix2 k d := funext fun a => Fin.ext (by
    match a with
    | ⟨0, _⟩ => exact lhs1_0 _ _
    | ⟨1, _⟩ => exact (lhs1_1 _ _).trans hd)
  have er : dot_S32x256_S2048x256_S32x2048_1_1_0_0_n_n.rhsIdx (ix2 k l) ((contrEquiv1 dot_S32x256_S2048x256_S32x2048_1_1_0_0_n_n 256 rfl rfl).symm d) = ix2 l d := funext fun a => Fin.ext (by
    match a with
    | ⟨0, _⟩ => exact rhs1_0 _ _
    | ⟨1, _⟩ => exact (rhs1_1 _ _).trans hd)
  rw [el, er]
  exact congrArg (v0 (ix2 k d) * ·) (batch_at v4 l d)

theorem tops_at (k : Fin 32) : tops v0 v4 (ix1 k) = top (scoreOf v0 v4 k) := by
  refine (Ideal.multiReduction_maximumf_single (scores v0 v4) 0xFF800000#32 reduces_S32x2048_S32 (.inl rfl) rfl (ix1 k)).trans ?_
  unfold top
  rw [Ideal.ofBits_def, ofBits_neg_inf]
  refine Finset.fold_congr fun l _ => ?_
  exact Eq.trans (congrArg (scores v0 v4) (funext fun a => Fin.ext (by
    match a with | ⟨0, _⟩ => rfl | ⟨1, _⟩ => rfl))) (scores_at v0 v4 k l)

theorem weights_at (k : Fin 32) (l : Fin 2048) : weights v0 v4 (ix2 k l) = weight (scoreOf v0 v4 k) l := by
  have e1 : broadcastTo S32x2048 (shapeCast S32x1 (tops v0 v4) shapeCasts_S32_S32x1) broadcasts_S32x1_S32x2048 (ix2 k l)
      = top (scoreOf v0 v4 k) :=
    (broadcastTo_a1_ab_apply _ broadcasts_S32x1_S32x2048 k l).trans
      ((shapeCast_a_a1_apply (tops v0 v4) shapeCasts_S32_S32x1 k 0).trans (tops_at v0 v4 k))
  show Ideal.exp (scores v0 v4 (ix2 k l)
    - broadcastTo S32x2048 (shapeCast S32x1 (tops v0 v4) shapeCasts_S32_S32x1) broadcasts_S32x1_S32x2048 (ix2 k l)) = _
  exact congrArg Ideal.exp (congrArg₂ (· - ·) (scores_at v0 v4 k l) e1)

theorem masses_at (k : Fin 32) : masses v0 v4 (ix1 k) = mass (scoreOf v0 v4 k) := by
  refine (Ideal.multiReduction_add_single (weights v0 v4) 0x00000000#32 reduces_S32x2048_S32 (.inl rfl) rfl (ix1 k)).trans ?_
  unfold mass
  refine Finset.sum_congr rfl fun l _ => ?_
  exact Eq.trans (congrArg (weights v0 v4) (funext fun a => Fin.ext (by
    match a with | ⟨0, _⟩ => rfl | ⟨1, _⟩ => rfl))) (weights_at v0 v4 k l)

theorem recips_at (k : Fin 32) : recips v0 v4 (ix2 k (0 : Fin 1)) = Ideal.div 1 (mass (scoreOf v0 v4 k)) := by
  show Ideal.div (Ideal.ofBits .f32 0x3F800000#32) (shapeCast S32x1 (masses v0 v4) shapeCasts_S32_S32x1 (ix2 k (0 : Fin 1))) = _
  exact congrArg₂ Ideal.div Ideal.ofBits_one_f32
    ((shapeCast_a_a1_apply (masses v0 v4) shapeCasts_S32_S32x1 k 0).trans (masses_at v0 v4 k))

theorem sums_at (k : Fin 32) (d : Fin 256) :
    sums v0 v4 (ix2 k d) = ∑ l : Fin 2048, weight (scoreOf v0 v4 k) l * v4 (ix3 (0 : Fin 1) l d) := by
  refine (Ideal.matmul_constant_zero_apply dot_S32x2048_S2048x256_S32x256_1_0_0_1_n_n none (truncf .bf16 (weights v0 v4) bitsLt_bf16_f32) (batch v4) (ix2 k d)).trans ?_
  rw [← Equiv.sum_comp (contrEquiv1 dot_S32x2048_S2048x256_S32x256_1_0_0_1_n_n 2048 rfl rfl).symm]
  refine Finset.sum_congr rfl fun l _ => ?_
  have hl := contrEquiv1_symm_val dot_S32x2048_S2048x256_S32x256_1_0_0_1_n_n 2048 rfl rfl l
  have el : dot_S32x2048_S2048x256_S32x256_1_0_0_1_n_n.lhsIdx (ix2 k d) ((contrEquiv1 dot_S32x2048_S2048x256_S32x256_1_0_0_1_n_n 2048 rfl rfl).symm l) = ix2 k l := funext fun a => Fin.ext (by
    match a with
    | ⟨0, _⟩ => exact lhs2_0 _ _
    | ⟨1, _⟩ => exact (lhs2_1 _ _).trans hl)
  have er : dot_S32x2048_S2048x256_S32x256_1_0_0_1_n_n.rhsIdx (ix2 k d) ((contrEquiv1 dot_S32x2048_S2048x256_S32x256_1_0_0_1_n_n 2048 rfl rfl).symm l) = ix2 l d := funext fun a => Fin.ext (by
    match a with
    | ⟨0, _⟩ => exact (rhs2_0 _ _).trans hl
    | ⟨1, _⟩ => exact rhs2_1 _ _)
  rw [el, er]
  exact congrArg₂ (· * ·) (weights_at v0 v4 k l) (batch_at v4 l d)

/-- THE TRIP'S VALUE at code `k`, feature `d`: the specification's pooled value of the batch. -/
theorem pay_at (k : Fin 32) (d : Fin 256) :
    k0_pay1 (F := Ideal) v0 v4 (ix3 (0 : Fin 1) k d)
      = pooled (scoreOf v0 v4 k) (fun l : Fin 2048 => v4 (ix3 (0 : Fin 1) l d)) := by
  rw [pay_eq]
  refine (shapeCast_ab_1ab_apply _ shapeCasts_S32x256_S1x32x256 (0 : Fin 1) k d).trans ?_
  show sums v0 v4 (ix2 k d) * broadcastTo S32x256 (recips v0 v4) broadcasts_S32x1_S32x256 (ix2 k d) = _
  unfold pooled
  exact congrArg₂ (· * ·) (sums_at v0 v4 k d)
    ((broadcastTo_a1_ab_apply (recips v0 v4) broadcasts_S32x1_S32x256 k d).trans (recips_at v0 v4 k))

end Cert.KernelIdeal.Trip

end
-- ==== Proof.KernelValue.lean ====
/-
  The kernel's result array on the extended reals: the pooled array, normalized after pooling.

  Grid point `t` (of 16) stages the 32 code vectors whole, batches 4t … 4t+3 of the features, and writes back
  batches 4t … 4t+3 of the result. Its output block, entry (b, k, d), is the pooled value of batch 4t+b for code `k`
  at feature `d`; that is the block of the pooled array at the point's place. The sixteen blocks tile the result,
  batch `B` lying in the block of point `B / 4`, so the array after the run is the pooled array.
-/
import proofs.«114220_j15642270892408_2_alg».proof.Proof.Gen.KernelIdeal.Value
import proofs.«114220_j15642270892408_2_alg».proof.Proof.PointValue
import proofs.«114220_j15642270892408_2_alg».proof.Proof.TripValue

set_option maxRecDepth 16384

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Pool

variable (m : (ℓ : Loc nD τ sig) → Buf (Elt Ideal) ℓ) (ρ : Dev nD → PrngReg)

/-- A point's output block by coordinates: the pooled value of batch `b` of the input block. -/
theorem pointOut_at (x0 : Vec Ideal S32x256 .f32) (x1 : Vec Ideal S4x2048x256 .f32) (b : Fin 4) (k : Fin 32) (d : Fin 256) :
    Point.pointOut x0 x1 (ix3 b k d)
      = pooled (score (fun d' : Fin 256 => x0 (ix2 k d')) (fun (l : Fin 2048) (d' : Fin 256) => x1 (ix3 b l d')))
          (fun l : Fin 2048 => x1 (ix3 b l d)) :=
  Trip.pay_at x0 (Point.batchOf x1 b) k d

/-- If the input blocks are the places (k, ·) of the codes and (B, ·, ·) of the features, the pooled value of the
    blocks is the pooled array at (B, k, d). -/
theorem pooled_of_blocks (X : (⟨3, ![64, 2048, 256]⟩ : Shape).Idx → EReal) (W : (⟨2, ![32, 256]⟩ : Shape).Idx → EReal)
    (x0 : (⟨2, ![32, 256]⟩ : Shape).Idx → EReal) (x1 : (⟨3, ![4, 2048, 256]⟩ : Shape).Idx → EReal)
    (i : (⟨3, ![64, 32, 256]⟩ : Shape).Idx) (B : Fin 64) (b : Fin 4) (k : Fin 32) (d : Fin 256) (hi : i = ix3 B k d)
    (h0 : ∀ d' : Fin 256, x0 (ix2 k d') = W (ix2 k d'))
    (h1 : ∀ (l : Fin 2048) (d' : Fin 256), x1 (ix3 b l d') = X (ix3 B l d')) :
    pooled (score (fun d' : Fin 256 => x0 (ix2 k d')) (fun (l : Fin 2048) (d' : Fin 256) => x1 (ix3 b l d')))
        (fun l : Fin 2048 => x1 (ix3 b l d))
      = pooledArray X W i := by
  subst hi
  have e1 : (fun d' : Fin 256 => x0 (ix2 k d')) = fun d' : Fin 256 => W (ix2 k d') := funext h0
  have e2 : (fun (l : Fin 2048) (d' : Fin 256) => x1 (ix3 b l d')) = fun (l : Fin 2048) (d' : Fin 256) => X (ix3 B l d') :=
    funext fun l => funext fun d' => h1 l d'
  have e3 : (fun l : Fin 2048 => x1 (ix3 b l d)) = fun l : Fin 2048 => X (ix3 B l d) := funext fun l => h1 l d
  rw [e1, e2, e3]
  rfl

/-- The printed index maps, decided over the grid: the codes' window stays at block (0, 0); the features' and the
    result's windows are at block (t, 0, 0). -/
theorem idx_facts : ∀ t : Fin cfg0.N, win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- WHAT POINT `t` WRITES BACK is block `t` of the pooled array of the argument arrays as the region finds them. -/
theorem flushed_eq (c : Dev nD) (t : Fin cfg0.N) :
    (dats m 0 c).flushed 2 t
      = ((cfg0.win 2).blk t).view.read (Elt Ideal) (pooledArray (V m c main_arg0) (V m c main_arg1)) := by
  rw [flushed2_A, Point.out_eq]
  obtain ⟨e00, e01, e10, e11, e12, e20, e21, e22⟩ := idx_facts t
  have ht : t.val < 16 := t.isLt
  refine funext fun (j : S4x32x256.Idx) => ?_
  obtain ⟨b, k, d, rfl⟩ : ∃ (b : Fin 4) (k : Fin 32) (d : Fin 256), j = ix3 b k d := ⟨j 0, j 1, j 2, eq_ix3 j⟩
  show Point.pointOut (iblk m c 0 t) (iblk m c 1 t) (ix3 b k d)
    = pooledArray (V m c main_arg0) (V m c main_arg1) (((cfg0.win 2).blk t).view.emb (ix3 b k d))
  refine (pointOut_at (iblk m c 0 t) (iblk m c 1 t) b k d).trans ?_
  have hb : b.val < 4 := b.isLt
  refine pooled_of_blocks (V m c main_arg0) (V m c main_arg1) (iblk m c 0 t) (iblk m c 1 t) _
    ⟨t.val * 4 + b.val, by omega⟩ b k d ?_ ?_ ?_
  · funext a; apply Fin.ext
    match a with
    | ⟨0, _⟩ => show win0_2.index t (0 : Fin 3) * 4 + 1 * b.val = t.val * 4 + b.val; omega
    | ⟨1, _⟩ => show win0_2.index t (1 : Fin 3) * 32 + 1 * k.val = k.val; omega
    | ⟨2, _⟩ => show win0_2.index t (2 : Fin 3) * 256 + 1 * d.val = d.val; omega
  · intro d'
    show V m c main_arg1 (((cfg0.win 0).blk t).view.emb (ix2 k d')) = V m c main_arg1 (ix2 k d')
    refine congrArg _ (funext fun a => Fin.ext ?_)
    match a with
    | ⟨0, _⟩ => show win0_0.index t (0 : Fin 2) * 32 + 1 * k.val = k.val; omega
    | ⟨1, _⟩ => show win0_0.index t (1 : Fin 2) * 256 + 1 * d'.val = d'.val; omega
  · intro l d'
    show V m c main_arg0 (((cfg0.win 1).blk t).view.emb (ix3 b l d')) = V m c main_arg0 (ix3 ⟨t.val * 4 + b.val, by omega⟩ l d')
    refine congrArg _ (funext fun a => Fin.ext ?_)
    match a with
    | ⟨0, _⟩ => show win0_1.index t (0 : Fin 3) * 4 + 1 * b.val = t.val * 4 + b.val; omega
    | ⟨1, _⟩ => show win0_1.index t (1 : Fin 3) * 2048 + 1 * l.val = l.val; omega
    | ⟨2, _⟩ => show win0_1.index t (2 : Fin 3) * 256 + 1 * d'.val = d'.val; omega

/-- An index of the result is in point `t`'s block iff each coordinate is in the block's range on its axis. -/
theorem mem_blk (t : Fin cfg0.N) (i : S64x32x256.Idx) :
    i ∈ ((cfg0.win 2).blk t).view.set ↔ ∀ a : Fin 3, win0_2.index t a * S4x32x256.size a ≤ (i a).val
      ∧ (i a).val < win0_2.index t a * S4x32x256.size a + S4x32x256.size a := by
  show i ∈ ((View.whole main_v0).slice (win0_2.rect t)).set ↔ _
  rw [View.set_slice_whole, Rect.mem_set_unit]
  exact Iff.rfl

/-- Every index of the result is in the block of the point its batch names. -/
theorem covered (i : S64x32x256.Idx) :
    ∃ t : Fin cfg0.N, (cfg0.win 2).flush t = true ∧ i ∈ ((cfg0.win 2).blk t).view.set := by
  have hi0 : (i 0).val < 64 := (i 0).isLt
  have hi1 : (i 1).val < 32 := (i 1).isLt
  have hi2 : (i 2).val < 256 := (i 2).isLt
  have hN : (i 0).val / 4 < cfg0.N := by show (i 0).val / 4 < 16; omega
  refine ⟨⟨(i 0).val / 4, hN⟩, flush0_2 _, ?_⟩
  rw [mem_blk]
  obtain ⟨-, -, -, -, -, e20, e21, e22⟩ := idx_facts ⟨(i 0).val / 4, hN⟩
  have e20' : win0_2.index ⟨(i 0).val / 4, hN⟩ (0 : Fin 3) = (i 0).val / 4 := e20
  intro a
  match a with
  | ⟨0, _⟩ =>
    show win0_2.index ⟨(i 0).val / 4, hN⟩ (0 : Fin 3) * 4 ≤ (i 0).val
      ∧ (i 0).val < win0_2.index ⟨(i 0).val / 4, hN⟩ (0 : Fin 3) * 4 + 4
    omega
  | ⟨1, _⟩ =>
    show win0_2.index ⟨(i 0).val / 4, hN⟩ (1 : Fin 3) * 32 ≤ (i 1).val
      ∧ (i 1).val < win0_2.index ⟨(i 0).val / 4, hN⟩ (1 : Fin 3) * 32 + 32
    omega
  | ⟨2, _⟩ =>
    show win0_2.index ⟨(i 0).val / 4, hN⟩ (2 : Fin 3) * 256 ≤ (i 2).val
      ∧ (i 2).val < win0_2.index ⟨(i 0).val / 4, hN⟩ (2 : Fin 3) * 256 + 256
    omega

/-- THE RESULT ARRAY after the run is the pooled array of the two argument arrays. -/
theorem final (c : Dev nD) : (dats m 0 c).arrAt 2 cfg0.N
    = pooledArray (m ((c : Thread nD τ).loc main_arg0)) (m ((c : Thread nD τ).loc main_arg1)) :=
  (dats m 0 c).arrAt_eq_of_cover 2 (pooledArray (V m c main_arg0) (V m c main_arg1))
    (fun t _ => flushed_eq m c t) covered

/-- The kernel's run, with its result array named: every weakly fair execution terminates with the result at the
    pooled array of the arguments, the arguments unchanged. -/
theorem run : θ_run defs (onTc (τ := τ) (main (F := Ideal))) ⟨m, fun _ => 0, ρ⟩ fun r => ∀ c : Dev nD,
      r.2.mem ((c : Thread nD τ).loc main_v0)
        = pooledArray (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ArrayValue

end
-- ==== Proof.lean ====
/-
  Softmax pooling over the sequence axis: the kernel against its jnp reference, on the extended reals.

  Both programs compute, for each batch `b`, code `k` and feature `d`, from the features `x[b, l, d]` and the code
  vectors `w[k, d]`: the scores `s l = Σ_d w[k,d] · x[b,l,d]`, the weights `e l = exp (s l - max_l s l)`, their sum `S`,
  and the pooled value. The kernel forms `(Σ_l e l · x[b,l,d]) · (1 / S)`, sixteen grid points of four batches each,
  the four batches of a point walked by a counted loop; the reference forms `Σ_l (e l / S) · x[b,l,d]` by host
  operations over whole arrays. With finite inputs every score is real, so the maximum is real, every weight is a
  positive real and `S` is a positive real, and the two forms are one real number: `(Σ e·v)·c = Σ (e·c)·v`.

  The modules: `Spec` (the pooled array, both forms, and the law between them), `Finite` (the precondition gives real
  entries), `RefValue` (the reference's stages read at coordinates), `TripValue` (one loop trip's arithmetic read at an
  index), `PointValue` (what the four trips of a point leave in its output block), `KernelValue` (the blocks tile the
  result: the kernel's run with its result array named).
-/
import proofs.«114220_j15642270892408_2_alg».proof.Defs
import proofs.«114220_j15642270892408_2_alg».proof.Proof.Gen.Kernel
import proofs.«114220_j15642270892408_2_alg».proof.Proof.Gen.Kernel.Skeleton
import proofs.«114220_j15642270892408_2_alg».proof.Proof.Gen.Kernel.Loops
import proofs.«114220_j15642270892408_2_alg».proof.Proof.Gen.Kernel.Launch
import proofs.«114220_j15642270892408_2_alg».proof.Proof.Gen.Kernel.Points
import proofs.«114220_j15642270892408_2_alg».proof.Proof.Gen.Kernel.Frame
import proofs.«114220_j15642270892408_2_alg».proof.Proof.Gen.KernelIdeal
import proofs.«114220_j15642270892408_2_alg».proof.Proof.Gen.KernelIdeal.Skeleton
import proofs.«114220_j15642270892408_2_alg».proof.Proof.Gen.KernelIdeal.Loops
import proofs.«114220_j15642270892408_2_alg».proof.Proof.Gen.KernelIdeal.Launch
import proofs.«114220_j15642270892408_2_alg».proof.Proof.Gen.KernelIdeal.Points
import proofs.«114220_j15642270892408_2_alg».proof.Proof.Gen.KernelIdeal.Frame
import proofs.«114220_j15642270892408_2_alg».proof.Proof.Gen.ReferenceIdeal
import proofs.«114220_j15642270892408_2_alg».proof.Proof.Gen.Pre_finite_inputs
import proofs.«114220_j15642270892408_2_alg».proof.Proof.Gen.KernelIdeal.Value
import proofs.«114220_j15642270892408_2_alg».proof.Proof.Gen.ReferenceIdeal.Run
import proofs.«114220_j15642270892408_2_alg».proof.Proof.Gen.ReferenceIdeal.Read
import proofs.«114220_j15642270892408_2_alg».proof.Proof.Spec
import proofs.«114220_j15642270892408_2_alg».proof.Proof.Finite
import proofs.«114220_j15642270892408_2_alg».proof.Proof.RefValue
import proofs.«114220_j15642270892408_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's text was not rewritten for the extended reals: nothing to preserve. -/
theorem preserves : Cert.preserves_Kernel_KernelIdeal := trivial

/-- On the extended reals, from finite inputs that agree, the kernel's result array ends at the pooled array
    normalized after pooling, the reference's at the pooled array normalized before pooling: one array. -/
theorem algebraic : Cert.algebraic_KernelIdeal_ReferenceIdeal := by
  intro m ρ m' ρ' hpre hagree
  refine ⟨fun c => Cert.Pool.pooledArray (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v12_eq _ _).trans ?_
  rw [Cert.ReferenceIdeal.RefValue.result_eq]
  obtain ⟨hx, hw⟩ := Cert.Pre_finite_inputs.Finite.real_of_pre _ _ (hpre c)
  exact (Cert.Pool.pooledArray_eq_ref _ _ hx hw).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
